-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x1 : Shape := ⟨2, ![64, 1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x1 .f32) (main_arg9 : FVec F S1 .f32) (main_arg10 : FVec F S64x1 .f32) (main_arg11 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S128x1 .f32) (main_arg9 : FVec F S1 .f32) (main_arg10 : FVec F S64x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x16 .f32) (main_arg1 : IVec S2x1600000 32) (main_arg2 : FVec F S16x128 .f32) (main_arg3 : FVec F S128 .f32) (main_arg4 : FVec F S128x128 .f32) (main_arg5 : FVec F S128 .f32) (main_arg6 : FVec F S128x64 .f32) (main_arg7 : FVec F S64 .f32) (main_arg8 : FVec F S128x1 .f32) (main_arg9 : FVec F S1 .f32) (main_arg10 : FVec F S64x1 .f32) (main_arg11 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x1 : Shape := ⟨2, ![64, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x16 : Shape := ⟨2, ![5000, 16]⟩
abbrev S5000x128 : Shape := ⟨2, ![5000, 128]⟩
abbrev S1700000x128 : Shape := ⟨2, ![1700000, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1x1 : Shape := ⟨2, ![1, 1]⟩
abbrev S8000x128 : Shape := ⟨2, ![8000, 128]⟩
abbrev S8000x1 : Shape := ⟨2, ![8000, 1]⟩
abbrev S100000x1 : Shape := ⟨2, ![100000, 1]⟩
abbrev S5000x1 : Shape := ⟨2, ![5000, 1]⟩

abbrev nBuf : Space → Nat
  | .hbm => 131
  | .vmem => 28
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x1, .f32⟩
  | 9 => ⟨S1, .f32⟩
  | 10 => ⟨S64x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S1x128, .f32⟩
  | 57 => ⟨S100000x128, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x64, .f32⟩
  | 91 => ⟨S1700000x64, .f32⟩
  | 92 => ⟨S_, .f32⟩
  | 93 => ⟨S100000x64, .f32⟩
  | 94 => ⟨S1700000x1, .i32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1x1600000, .i32⟩
  | 103 => ⟨S1600000, .i32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1x1600000, .i32⟩
  | 114 => ⟨S1600000, .i32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S1600000x128, .f32⟩
  | 125 => ⟨S1x1, .f32⟩
  | 126 => ⟨S1600000x1, .f32⟩
  | 127 => ⟨S1600000, .f32⟩
  | _ => ⟨S100000x16, .f32⟩

abbrev hbmTy0_1 (i : Nat) : BufTy := match i % 128 with
  | 0 => ⟨S1x1, .f32⟩
  | 1 => ⟨S100000x1, .f32⟩
  | 2 => ⟨S100000, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S8000x128, .f32⟩
  | .local _ .vmem, ⟨17, _⟩ => ⟨S8000x128, .f32⟩
  | .local _ .vmem, ⟨18, _⟩ => ⟨S128x1, .f32⟩
  | .local _ .vmem, ⟨19, _⟩ => ⟨S1x1, .f32⟩
  | .local _ .vmem, ⟨20, _⟩ => ⟨S8000x1, .f32⟩
  | .local _ .vmem, ⟨21, _⟩ => ⟨S8000x1, .f32⟩
  | .local _ .vmem, ⟨22, _⟩ => ⟨S5000x64, .f32⟩
  | .local _ .vmem, ⟨23, _⟩ => ⟨S5000x64, .f32⟩
  | .local _ .vmem, ⟨24, _⟩ => ⟨S64x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S8000x128_S128x1_S8000x1_1_0_0_1_n_n_wf : DotDims.WF S8000x128 S128x1 S8000x1 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S1600000x128.size a
  hwx3_0 : ∀ i : grid3.Coords, EltTy.bits .f32 = 32 ∨ (Rect.block (s := S1600000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x1.size a ≤ S1600000x1.size a
  hwx3_3 : ∀ i : grid3.Coords, EltTy.bits .f32 = 32 ∨ (Rect.block (s := S1600000x1) S8000x1.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S8000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x1 : Shape := ⟨2, ![64, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1x1 : Shape := ⟨2, ![1, 1]⟩
abbrev S100000x1 : Shape := ⟨2, ![100000, 1]⟩

abbrev nBuf : Space → Nat
  | .hbm => 183
  | .vmem => 0
  | .smem => 0
  | _ => 0

abbrev hbmTy0_0 (i : Nat) : BufTy := match i % 128 with
  | 0 => ⟨S100000x16, .f32⟩
  | 1 => ⟨S2x1600000, .i32⟩
  | 2 => ⟨S16x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x1, .f32⟩
  | 9 => ⟨S1, .f32⟩
  | 10 => ⟨S64x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x64, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S1x1600000, .i32⟩
  | _ => ⟨S100000x16, .f32⟩

abbrev hbmTy0_1 (i : Nat) : BufTy := match i % 128 with
  | 0 => ⟨S1600000, .i32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1x1600000, .i32⟩
  | 11 => ⟨S1600000, .i32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S1600000x128, .f32⟩
  | 22 => ⟨S1600000x1, .f32⟩
  | 23 => ⟨S1x1, .f32⟩
  | 24 => ⟨S1600000x1, .f32⟩
  | 25 => ⟨S1600000x1, .f32⟩
  | 26 => ⟨S1600000, .f32⟩
  | 27 => ⟨S1600000, .f32⟩
  | 28 => ⟨S1600000, .f32⟩
  | 29 => ⟨S_, .f32⟩
  | 30 => ⟨S1600000, .f32⟩
  | 31 => ⟨S1600000, .f32⟩
  | 32 => ⟨S_, .f32⟩
  | 33 => ⟨S1600000, .f32⟩
  | 34 => ⟨S1600000, .f32⟩
  | 35 => ⟨S100000x1, .f32⟩
  | 36 => ⟨S1x1, .f32⟩
  | 37 => ⟨S100000x1, .f32⟩
  | 38 => ⟨S100000x1, .f32⟩
  | 39 => ⟨S100000, .f32⟩
  | 40 => ⟨S100000, .f32⟩
  | 41 => ⟨S100000, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S100000, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_cst : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call3_cst : Ref sig .tc := ⟨.hbm, 124, rfl⟩
abbrev main_call3_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_17 : Ref sig .tc := ⟨.hbm, 129, rfl⟩
abbrev main_v90 : Ref sig .tc := ⟨.hbm, 130, rfl⟩
abbrev main_v91 : Ref sig .tc := ⟨.hbm, 131, rfl⟩
abbrev main_c_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_19 : Ref sig .tc := ⟨.hbm, 140, rfl⟩
abbrev main_v99 : Ref sig .tc := ⟨.hbm, 141, rfl⟩
abbrev main_v100 : Ref sig .tc := ⟨.hbm, 142, rfl⟩
abbrev main_c_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_21 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_23 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_v130 : Ref sig .tc := ⟨.hbm, 178, rfl⟩
abbrev main_cst_26 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  gather_S100000_S1700000x1_S1700000_n_0_n_n_0_1_1_wf : GatherDims.WF S100000 S1700000x1 S1700000 [] [0] [] [0] [] 1 ![1]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S1600000x128_S128x1_S1600000x1_1_0_0_1_n_n_wf : DotDims.WF S1600000x128 S128x1 S1600000x1 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its two results named.

  The program is five matrix-product regions among stretches of host operations. Launched on any memory, every weakly
  fair execution terminates, and in the final memory every array the program names holds what the fold of the program's
  segments over the launch memory leaves there: a host stretch applies its operations in order, a region replaces each
  of its output arrays by what its grid points wrote back. Stated here for the two result arrays (the switch
  predictions, one per edge, and the voltage predictions, one per node) beside the unchanged arguments.
-/
import proofs.«132030_j83554293776947_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; each result array ends at the value the segments' fold leaves in it, and
    each argument array ends as launched. -/
theorem run_results : θ_run defs (onTc (τ := τ) (main (F := F))) ⟨m, fun _ => 0, ρ⟩ (fun r => ∀ c : Dev nD,
      r.2.mem ((c.tc : Thread nD τ).loc main_v90) = W15 m ρ c (Proc.devRef .tc main_v90)
      ∧ r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v90 (by decide)),
       h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Results

end
-- ==== Proof.LibHostLine.lean ====
/-
  Reading a long straight line of host operations a stretch at a time.

  What an array holds after a line of operations is a fold over the line. Three facts make a long line readable in short
  stretches: a line cut in two is run by running the first part and then the second; a stretch leaves alone every array
  none of its operations writes; and a join of six operands written as one operation over a literal family of six
  arrays reads each operand at its own array (the library states this for four operands). Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- A stretch leaves alone every array none of its operations writes (the hypothesis as a `List.Forall`, which a literal
    stretch discharges operation by operation: each operation writes only its own result array). -/
theorem after_keeps {seg : List (HloOp τ sig Val)} {b : Ref sig .tc} (ν : Valuation τ sig Val)
    (h : seg.Forall fun op => Proc.devRef .tc b ∉ op.writes) :
    StableHlo.after seg ν (Proc.devRef .tc b) = ν (Proc.devRef .tc b) :=
  StableHlo.after_of_forall_not_mem _ _ (List.forall_iff_forall_mem.mp h)

variable {x0 x1 x2 x3 x4 x5 y : Ref sig .tc}

/-- An operation over a LITERAL family of six arrays (a join of six operands), read at its result array: its function of
    the six operands' contents, each at its own array — so that reading can go on into the operands. -/
theorem nary6_result
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [nary_result]; congr 1; funext k; fin_cases k <;> rfl

end Cert.Lib

end
-- ==== Proof.Carry.lean ====
/-
  Which arrays a stretch of the kernel program leaves alone.

  The program's buffers after each of its fifteen segments are a fold over the launch memory. A host stretch writes
  only the result arrays of its own operations, and a region writes only its own output array; so an array that a
  later segment reads, and that no segment in between writes, still holds there what it held before. These are those
  facts for the arrays the value proof reads across segments: the arguments, the source and destination index vectors,
  the per-edge scale, the final node embeddings and the first result.
-/
import proofs.«132030_j83554293776947_1_alg».proof.Proof.Gen.KernelIdeal.Frame
import proofs.«132030_j83554293776947_1_alg».proof.Proof.LibHostLine

set_option maxRecDepth 16384

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- No operation of a literal stretch writes the array: each operation writes its own result array only, and the
    references differ. -/
macro "not_written" : tactic => `(tactic| (
  simp only [hostOps0, hostOps0_1, hostOps0_2, hostOps2, hostOps2_1, hostOps3, hostOps3_1, hostOps3_2, hostOps4, hostOps5,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W3_main_arg0 (c : Dev nD) : W3 m ρ c (Proc.devRef .tc main_arg0) = m ((c : Thread nD τ).loc main_arg0) :=
  ((Cert.Lib.after_keeps (seg := hostOps0_2) (b := main_arg0) (W2 m ρ c) (by not_written)).trans ((Cert.Lib.after_keeps (seg := hostOps0_1) (b := main_arg0) (W1 m ρ c) (by not_written)).trans (Cert.Lib.after_keeps (seg := hostOps0) (b := main_arg0) (W0 m ρ c) (by not_written))))

theorem W3_main_arg2 (c : Dev nD) : W3 m ρ c (Proc.devRef .tc main_arg2) = m ((c : Thread nD τ).loc main_arg2) :=
  ((Cert.Lib.after_keeps (seg := hostOps0_2) (b := main_arg2) (W2 m ρ c) (by not_written)).trans ((Cert.Lib.after_keeps (seg := hostOps0_1) (b := main_arg2) (W1 m ρ c) (by not_written)).trans (Cert.Lib.after_keeps (seg := hostOps0) (b := main_arg2) (W0 m ρ c) (by not_written))))

theorem W4_main_arg4 (c : Dev nD) : W4 m ρ c (Proc.devRef .tc main_arg4) = m ((c : Thread nD τ).loc main_arg4) :=
  ((W4_of_ne m ρ c main_arg4 (by decide)).trans ((Cert.Lib.after_keeps (seg := hostOps0_2) (b := main_arg4) (W2 m ρ c) (by not_written)).trans ((Cert.Lib.after_keeps (seg := hostOps0_1) (b := main_arg4) (W1 m ρ c) (by not_written)).trans (Cert.Lib.after_keeps (seg := hostOps0) (b := main_arg4) (W0 m ρ c) (by not_written)))))

theorem W5_main_arg5 (c : Dev nD) : W5 m ρ c (Proc.devRef .tc main_arg5) = m ((c : Thread nD τ).loc main_arg5) :=
  ((W5_of_ne m ρ c main_arg5 (by decide)).trans ((W4_of_ne m ρ c main_arg5 (by decide)).trans ((Cert.Lib.after_keeps (seg := hostOps0_2) (b := main_arg5) (W2 m ρ c) (by not_written)).trans ((Cert.Lib.after_keeps (seg := hostOps0_1) (b := main_arg5) (W1 m ρ c) (by not_written)).trans (Cert.Lib.after_keeps (seg := hostOps0) (b := main_arg5) (W0 m ρ c) (by not_written))))))

theorem W7_main_arg6 (c : Dev nD) : W7 m ρ c (Proc.devRef .tc main_arg6) = m ((c : Thread nD τ).loc main_arg6) :=
  ((Cert.Lib.after_keeps (seg := hostOps2_1) (b := main_arg6) (W6 m ρ c) (by not_written)).trans ((Cert.Lib.after_keeps (seg := hostOps2) (b := main_arg6) (W5 m ρ c) (by not_written)).trans ((W5_of_ne m ρ c main_arg6 (by decide)).trans ((W4_of_ne m ρ c main_arg6 (by decide)).trans ((Cert.Lib.after_keeps (seg := hostOps0_2) (b := main_arg6) (W2 m ρ c) (by not_written)).trans ((Cert.Lib.after_keeps (seg := hostOps0_1) (b := main_arg6) (W1 m ρ c) (by not_written)).trans (Cert.Lib.after_keeps (seg := hostOps0) (b := main_arg6) (W0 m ρ c) (by not_written))))))))

theorem W8_main_arg7 (c : Dev nD) : W8 m ρ c (Proc.devRef .tc main_arg7) = m ((c : Thread nD τ).loc main_arg7) :=
  ((W8_of_ne m ρ c main_arg7 (by decide)).trans ((Cert.Lib.after_keeps (seg := hostOps2_1) (b := main_arg7) (W6 m ρ c) (by not_written)).trans ((Cert.Lib.after_keeps (seg := hostOps2) (b := main_arg7) (W5 m ρ c) (by not_written)).trans ((W5_of_ne m ρ c main_arg7 (by decide)).trans ((W4_of_ne m ρ c main_arg7 (by decide)).trans ((Cert.Lib.after_keeps (seg := hostOps0_2) (b := main_arg7) (W2 m ρ c) (by not_written)).trans ((Cert.Lib.after_keeps (seg := hostOps0_1) (b := main_arg7) (W1 m ρ c) (by not_written)).trans (Cert.Lib.after_keeps (seg := hostOps0) (b := main_arg7) (W0 m ρ c) (by not_written)))))))))

theorem W10_main_arg1 (c : Dev nD) : W10 m ρ c (Proc.devRef .tc main_arg1) = m ((c : Thread nD τ).loc main_arg1) :=
  ((Cert.Lib.after_keeps (seg := hostOps3_1) (b := main_arg1) (W9 m ρ c) (by not_written)).trans ((Cert.Lib.after_keeps (seg := hostOps3) (b := main_arg1) (W8 m ρ c) (by not_written)).trans ((W8_of_ne m ρ c main_arg1 (by decide)).trans ((Cert.Lib.after_keeps (seg := hostOps2_1) (b := main_arg1) (W6 m ρ c) (by not_written)).trans ((Cert.Lib.after_keeps (seg := hostOps2) (b := main_arg1) (W5 m ρ c) (by not_written)).trans ((W5_of_ne m ρ c main_arg1 (by decide)).trans ((W4_of_ne m ρ c main_arg1 (by decide)).trans ((Cert.Lib.after_keeps (seg := hostOps0_2) (b := main_arg1) (W2 m ρ c) (by not_written)).trans ((Cert.Lib.after_keeps (seg := hostOps0_1) (b := main_arg1) (W1 m ρ c) (by not_written)).trans (Cert.Lib.after_keeps (seg := hostOps0) (b := main_arg1) (W0 m ρ c) (by not_written)))))))))))

theorem W10_main_arg9 (c : Dev nD) : W10 m ρ c (Proc.devRef .tc main_arg9) = m ((c : Thread nD τ).loc main_arg9) :=
  ((Cert.Lib.after_keeps (seg := hostOps3_1) (b := main_arg9) (W9 m ρ c) (by not_written)).trans ((Cert.Lib.after_keeps (seg := hostOps3) (b := main_arg9) (W8 m ρ c) (by not_written)).trans ((W8_of_ne m ρ c main_arg9 (by decide)).trans ((Cert.Lib.after_keeps (seg := hostOps2_1) (b := main_arg9) (W6 m ρ c) (by not_written)).trans ((Cert.Lib.after_keeps (seg := hostOps2) (b := main_arg9) (W5 m ρ c) (by not_written)).trans ((W5_of_ne m ρ c main_arg9 (by decide)).trans ((W4_of_ne m ρ c main_arg9 (by decide)).trans ((Cert.Lib.after_keeps (seg := hostOps0_2) (b := main_arg9) (W2 m ρ c) (by not_written)).trans ((Cert.Lib.after_keeps (seg := hostOps0_1) (b := main_arg9) (W1 m ρ c) (by not_written)).trans (Cert.Lib.after_keeps (seg := hostOps0) (b := main_arg9) (W0 m ρ c) (by not_written)))))))))))

theorem W11_main_arg8 (c : Dev nD) : W11 m ρ c (Proc.devRef .tc main_arg8) = m ((c : Thread nD τ).loc main_arg8) :=
  ((Cert.Lib.after_keeps (seg := hostOps3_2) (b := main_arg8) (W10 m ρ c) (by not_written)).trans ((Cert.Lib.after_keeps (seg := hostOps3_1) (b := main_arg8) (W9 m ρ c) (by not_written)).trans ((Cert.Lib.after_keeps (seg := hostOps3) (b := main_arg8) (W8 m ρ c) (by not_written)).trans ((W8_of_ne m ρ c main_arg8 (by decide)).trans ((Cert.Lib.after_keeps (seg := hostOps2_1) (b := main_arg8) (W6 m ρ c) (by not_written)).trans ((Cert.Lib.after_keeps (seg := hostOps2) (b := main_arg8) (W5 m ρ c) (by not_written)).trans ((W5_of_ne m ρ c main_arg8 (by decide)).trans ((W4_of_ne m ρ c main_arg8 (by decide)).trans ((Cert.Lib.after_keeps (seg := hostOps0_2) (b := main_arg8) (W2 m ρ c) (by not_written)).trans ((Cert.Lib.after_keeps (seg := hostOps0_1) (b := main_arg8) (W1 m ρ c) (by not_written)).trans (Cert.Lib.after_keeps (seg := hostOps0) (b := main_arg8) (W0 m ρ c) (by not_written))))))))))))

theorem W12_main_arg11 (c : Dev nD) : W12 m ρ c (Proc.devRef .tc main_arg11) = m ((c : Thread nD τ).loc main_arg11) :=
  ((W12_of_ne m ρ c main_arg11 (by decide)).trans ((Cert.Lib.after_keeps (seg := hostOps3_2) (b := main_arg11) (W10 m ρ c) (by not_written)).trans ((Cert.Lib.after_keeps (seg := hostOps3_1) (b := main_arg11) (W9 m ρ c) (by not_written)).trans ((Cert.Lib.after_keeps (seg := hostOps3) (b := main_arg11) (W8 m ρ c) (by not_written)).trans ((W8_of_ne m ρ c main_arg11 (by decide)).trans ((Cert.Lib.after_keeps (seg := hostOps2_1) (b := main_arg11) (W6 m ρ c) (by not_written)).trans ((Cert.Lib.after_keeps (seg := hostOps2) (b := main_arg11) (W5 m ρ c) (by not_written)).trans ((W5_of_ne m ρ c main_arg11 (by decide)).trans ((W4_of_ne m ρ c main_arg11 (by decide)).trans ((Cert.Lib.after_keeps (seg := hostOps0_2) (b := main_arg11) (W2 m ρ c) (by not_written)).trans ((Cert.Lib.after_keeps (seg := hostOps0_1) (b := main_arg11) (W1 m ρ c) (by not_written)).trans (Cert.Lib.after_keeps (seg := hostOps0) (b := main_arg11) (W0 m ρ c) (by not_written)))))))))))))

theorem W13_main_arg10 (c : Dev nD) : W13 m ρ c (Proc.devRef .tc main_arg10) = m ((c : Thread nD τ).loc main_arg10) :=
  ((Cert.Lib.after_keeps (seg := hostOps4) (b := main_arg10) (W12 m ρ c) (by not_written)).trans ((W12_of_ne m ρ c main_arg10 (by decide)).trans ((Cert.Lib.after_keeps (seg := hostOps3_2) (b := main_arg10) (W10 m ρ c) (by not_written)).trans ((Cert.Lib.after_keeps (seg := hostOps3_1) (b := main_arg10) (W9 m ρ c) (by not_written)).trans ((Cert.Lib.after_keeps (seg := hostOps3) (b := main_arg10) (W8 m ρ c) (by not_written)).trans ((W8_of_ne m ρ c main_arg10 (by decide)).trans ((Cert.Lib.after_keeps (seg := hostOps2_1) (b := main_arg10) (W6 m ρ c) (by not_written)).trans ((Cert.Lib.after_keeps (seg := hostOps2) (b := main_arg10) (W5 m ρ c) (by not_written)).trans ((W5_of_ne m ρ c main_arg10 (by decide)).trans ((W4_of_ne m ρ c main_arg10 (by decide)).trans ((Cert.Lib.after_keeps (seg := hostOps0_2) (b := main_arg10) (W2 m ρ c) (by not_written)).trans ((Cert.Lib.after_keeps (seg := hostOps0_1) (b := main_arg10) (W1 m ρ c) (by not_written)).trans (Cert.Lib.after_keeps (seg := hostOps0) (b := main_arg10) (W0 m ρ c) (by not_written))))))))))))))

theorem W5_main_v3_from3 (c : Dev nD) : W5 m ρ c (Proc.devRef .tc main_v3) = W3 m ρ c (Proc.devRef .tc main_v3) :=
  ((W5_of_ne m ρ c main_v3 (by decide)).trans (W4_of_ne m ρ c main_v3 (by decide)))

theorem W5_main_v6_from3 (c : Dev nD) : W5 m ρ c (Proc.devRef .tc main_v6) = W3 m ρ c (Proc.devRef .tc main_v6) :=
  ((W5_of_ne m ρ c main_v6 (by decide)).trans (W4_of_ne m ρ c main_v6 (by decide)))

theorem W5_main_v32_from3 (c : Dev nD) : W5 m ρ c (Proc.devRef .tc main_v32) = W3 m ρ c (Proc.devRef .tc main_v32) :=
  ((W5_of_ne m ρ c main_v32 (by decide)).trans (W4_of_ne m ρ c main_v32 (by decide)))

theorem W8_main_v3_from3 (c : Dev nD) : W8 m ρ c (Proc.devRef .tc main_v3) = W3 m ρ c (Proc.devRef .tc main_v3) :=
  ((W8_of_ne m ρ c main_v3 (by decide)).trans ((Cert.Lib.after_keeps (seg := hostOps2_1) (b := main_v3) (W6 m ρ c) (by not_written)).trans ((Cert.Lib.after_keeps (seg := hostOps2) (b := main_v3) (W5 m ρ c) (by not_written)).trans ((W5_of_ne m ρ c main_v3 (by decide)).trans (W4_of_ne m ρ c main_v3 (by decide))))))

theorem W8_main_v6_from3 (c : Dev nD) : W8 m ρ c (Proc.devRef .tc main_v6) = W3 m ρ c (Proc.devRef .tc main_v6) :=
  ((W8_of_ne m ρ c main_v6 (by decide)).trans ((Cert.Lib.after_keeps (seg := hostOps2_1) (b := main_v6) (W6 m ρ c) (by not_written)).trans ((Cert.Lib.after_keeps (seg := hostOps2) (b := main_v6) (W5 m ρ c) (by not_written)).trans ((W5_of_ne m ρ c main_v6 (by decide)).trans (W4_of_ne m ρ c main_v6 (by decide))))))

theorem W8_main_v32_from3 (c : Dev nD) : W8 m ρ c (Proc.devRef .tc main_v32) = W3 m ρ c (Proc.devRef .tc main_v32) :=
  ((W8_of_ne m ρ c main_v32 (by decide)).trans ((Cert.Lib.after_keeps (seg := hostOps2_1) (b := main_v32) (W6 m ρ c) (by not_written)).trans ((Cert.Lib.after_keeps (seg := hostOps2) (b := main_v32) (W5 m ρ c) (by not_written)).trans ((W5_of_ne m ρ c main_v32 (by decide)).trans (W4_of_ne m ρ c main_v32 (by decide))))))

theorem W13_main_v68_from10 (c : Dev nD) : W13 m ρ c (Proc.devRef .tc main_v68) = W10 m ρ c (Proc.devRef .tc main_v68) :=
  ((Cert.Lib.after_keeps (seg := hostOps4) (b := main_v68) (W12 m ρ c) (by not_written)).trans ((W12_of_ne m ρ c main_v68 (by decide)).trans (Cert.Lib.after_keeps (seg := hostOps3_2) (b := main_v68) (W10 m ρ c) (by not_written))))

theorem W15_main_v90_from13 (c : Dev nD) : W15 m ρ c (Proc.devRef .tc main_v90) = W13 m ρ c (Proc.devRef .tc main_v90) :=
  ((Cert.Lib.after_keeps (seg := hostOps5) (b := main_v90) (W14 m ρ c) (by not_written)).trans (W14_of_ne m ρ c main_v90 (by decide)))

theorem W2_main_arg3 (c : Dev nD) : W2 m ρ c (Proc.devRef .tc main_arg3) = m ((c : Thread nD τ).loc main_arg3) :=
  ((Cert.Lib.after_keeps (seg := hostOps0_1) (b := main_arg3) (W1 m ρ c) (by not_written)).trans (Cert.Lib.after_keeps (seg := hostOps0) (b := main_arg3) (W0 m ρ c) (by not_written)))

end Cert.KernelIdeal.Carry

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Encoder.lean ====
/-
  The first region: the encoder layer relu (x · W + b) of the node inputs x [100000, 16], with W [16, 128] and the
  bias laid out as a row [1, 128].

  Twenty grid points; point t computes rows 5000·t … 5000·t + 4999. Entry (n, q) is
  max (Σ_k x (n, k) · W (k, q) + b (0, q)) 0: a function of row n of x alone, so the row blocks are independent and
  together cover the result.
-/
import proofs.«132030_j83554293776947_1_alg».proof.Proof.Gen.KernelIdeal.Frame
import proofs.«132030_j83554293776947_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Encoder

open Cert.KernelIdeal Cert.KernelIdeal.Gen

theorem hz : (![0, 0] : Fin 2 → Nat) = fun _ => 0 := funext fun a => by fin_cases a <;> rfl

/-- One entry of the result, from the row of the left operand it depends on, the column of the weight and the bias entry of that column. -/
def entry (xrow : Fin 16 → EReal) (W : S16x128.Idx → EReal) (B : S1x128.Idx → EReal) (q : Fin 128) : EReal :=
  max ((∑ k : Fin 16, xrow k * W (ix2 k q)) + B (ix2 (0 : Fin 1) q)) (Ideal.ofBits .f32 0x00000000#32)

/-- The whole result array: entry (n, q) is `entry` of row n of the left operand. -/
def result (X : S100000x16.Idx → EReal) (W : S16x128.Idx → EReal) (B : S1x128.Idx → EReal) : S100000x128.Idx → EReal :=
  fun i => entry (fun k => X (ix2 (⟨(i 0).val, (i 0).isLt⟩ : Fin 100000) k)) W B (⟨(i 1).val, (i 1).isLt⟩ : Fin 128)

/-- The same layer formula at equal pre-activations. -/
theorem entry_congr {a a' b b' : EReal} (ha : a = a') (hb : b = b') :
    max (a + b) (Ideal.ofBits .f32 0x00000000#32) = max (a' + b') (Ideal.ofBits .f32 0x00000000#32) := by rw [ha, hb]

/-- The body's stored value at row p, column q of its block. -/
theorem pay_apply (x0 : Vec Ideal S5000x16 .f32) (x1 : Vec Ideal S16x128 .f32) (x2 : Vec Ideal S1x128 .f32) (p : Fin 5000) (q : Fin 128) :
    k0_pay1 (F := Ideal) x0 x1 x2 (ix2 p q) = entry (fun k => x0 (ix2 p k)) x1 x2 q := by
  have e2 : broadcastTo S5000x128 (shapeCast S1x128 x2 shapeCasts_S1x128_S1x128) broadcasts_S1x128_S5000x128 (ix2 p q) = x2 (ix2 (0 : Fin 1) q) := by
    rw [shapeCast_self]; exact broadcastTo_1b_ab_apply x2 _ p q
  unfold k0_pay1 entry
  exact entry_congr (Cert.Lib.matmul_zero_apply (M := 5000) (K := 16) (N := 128) _ none _ _ p q) e2

/-- The index maps of the region's windows, decided over the grid: the row blocks of the left operand and of the
    result move together with the grid point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point t writes back is block t of the result array of the arrays the region found. -/
theorem flushed_eq (c : Dev nD) (t : Fin cfg0.N) :
    (dat0 V c).flushed 3 t = ((cfg0.win 3).blk t).view.read (Elt Ideal)
      (result (V c main_arg0) (V c main_arg2) (V c main_v33)) := by
  show (cfg0.win 3).cut (grid0.coords t) ((dat0 V c).after 3 t) = _
  rw [after0_3]
  unfold out0_3
  rw [View.canon_unit_zero hz]
  simp only [View.ld_unit_zero (S := S5000x16) hz, View.ld_unit_zero (S := S16x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_apply _ _ _ p q).trans ?_
  show _ = result (V c main_arg0) (V c main_arg2) (V c main_v33) (((cfg0.win 3).blk t).view.emb (ix2 p q))
  unfold result
  have hq : (⟨((((cfg0.win 3).blk t).view.emb (ix2 p q)) 1).val, ((((cfg0.win 3).blk t).view.emb (ix2 p q)) 1).isLt⟩ : Fin 128) = q :=
    Fin.ext (by show win0_3.index t (1 : Fin 2) * 128 + 1 * q.val = q.val; omega)
  rw [hq]
  have hx : (fun k : Fin 16 => iblk0 V c 0 t (ix2 p k))
      = fun k : Fin 16 => V c main_arg0 (ix2 (⟨((((cfg0.win 3).blk t).view.emb (ix2 p q)) 0).val, ((((cfg0.win 3).blk t).view.emb (ix2 p q)) 0).isLt⟩ : Fin 100000) k) := by
    funext k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 16 + 1 * k.val = k.val; omega
  have hw : iblk0 V c 1 t = V c main_arg2 := by
    funext y
    show V c main_arg2 (((cfg0.win 1).blk t).view.emb y) = _
    refine congrArg (V c main_arg2) (funext fun a => Fin.ext ?_)
    match a with
    | ⟨0, _⟩ => show win0_1.index t (0 : Fin 2) * 16 + 1 * (y 0).val = (y 0).val; omega
    | ⟨1, _⟩ => show win0_1.index t (1 : Fin 2) * 128 + 1 * (y 1).val = (y 1).val; omega
  have hb : iblk0 V c 2 t = V c main_v33 := by
    funext y
    show V c main_v33 (((cfg0.win 2).blk t).view.emb y) = _
    refine congrArg (V c main_v33) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hx, hw, hb]

/-- An index of the result array is in point t's block iff its row is one of the block's 5000 rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- Every row of the result array lies in the block of the point its row number divided by 5000 names. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The region's output array after all its grid points: the result array of the arrays the region found. -/
theorem final (c : Dev nD) :
    (dat0 V c).arrAt 3 cfg0.N = result (V c main_arg0) (V c main_arg2) (V c main_v33) :=
  (dat0 V c).arrAt_eq_of_cover 3 _ (fun t _ => flushed_eq V c t) cover

end Cert.KernelIdeal.Encoder

end
-- ==== Proof.Layer0Weights.lean ====
/-
  The second region: the hidden node features [100000, 128] times the first graph layer's weight [128, 128].

  The region's grid has 20 points; point t loads rows 5000·t … 5000·t + 4999 of the features and the whole weight, and
  stores their product into the same rows of the result. Entry (n, q) of the result is the sum over k of
  feature (n, k) · weight (k, q): it depends on row n of the features only, so the row blocks can be computed
  independently, and the blocks together cover every row. Rounding the operands to bf16 on the way into the product
  is the identity over the extended reals.
-/
import proofs.«132030_j83554293776947_1_alg».proof.Proof.Gen.KernelIdeal.Frame
import proofs.«132030_j83554293776947_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer0Weights

open Cert.KernelIdeal Cert.KernelIdeal.Gen

theorem hz : (![0, 0] : Fin 2 → Nat) = fun _ => 0 := funext fun a => by fin_cases a <;> rfl

/-- One entry of the result, from the row of the left operand it depends on and the column of the weight. -/
def entry (xrow : Fin 128 → EReal) (W : S128x128.Idx → EReal) (q : Fin 128) : EReal :=
  (∑ k : Fin 128, xrow k * W (ix2 k q))

/-- The whole result array: entry (n, q) is `entry` of row n of the left operand. -/
def result (X : S100000x128.Idx → EReal) (W : S128x128.Idx → EReal) : S100000x128.Idx → EReal :=
  fun i => entry (fun k => X (ix2 (⟨(i 0).val, (i 0).isLt⟩ : Fin 100000) k)) W (⟨(i 1).val, (i 1).isLt⟩ : Fin 128)

/-- The body's stored value at row p, column q of its block. -/
theorem pay_apply (x0 : Vec Ideal S5000x128 .f32) (x1 : Vec Ideal S128x128 .f32) (p : Fin 5000) (q : Fin 128) :
    k1_pay1 (F := Ideal) x0 x1 (ix2 p q) = entry (fun k => x0 (ix2 p k)) x1 q := by
  unfold k1_pay1 entry
  rw [shapeCast_self]
  exact Cert.Lib.matmul_zero_apply (M := 5000) (K := 128) (N := 128) _ none _ _ p q

/-- The index maps of the region's windows, decided over the grid: the row blocks of the left operand and of the
    result move together with the grid point, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the result array of the arrays the region found. -/
theorem flushed_eq (c : Dev nD) (t : Fin cfg1.N) :
    (dat1 V c).flushed 2 t = ((cfg1.win 2).blk t).view.read (Elt Ideal)
      (result (V c main_v34) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e6, e7⟩ := idx_facts t
  funext j
  obtain ⟨p, q, rfl⟩ : ∃ (p : Fin 5000) (q : Fin 128), j = ix2 p q := ⟨j 0, j 1, eq_ix2 j⟩
  refine (pay_apply _ _ p q).trans ?_
  show _ = result (V c main_v34) (V c main_arg4) (((cfg1.win 2).blk t).view.emb (ix2 p q))
  unfold result
  have hq : (⟨((((cfg1.win 2).blk t).view.emb (ix2 p q)) 1).val, ((((cfg1.win 2).blk t).view.emb (ix2 p q)) 1).isLt⟩ : Fin 128) = q :=
    Fin.ext (by show win1_2.index t (1 : Fin 2) * 128 + 1 * q.val = q.val; omega)
  rw [hq]
  have hx : (fun k : Fin 128 => iblk1 V c 0 t (ix2 p k))
      = fun k : Fin 128 => V c main_v34 (ix2 (⟨((((cfg1.win 2).blk t).view.emb (ix2 p q)) 0).val, ((((cfg1.win 2).blk t).view.emb (ix2 p q)) 0).isLt⟩ : Fin 100000) k) := by
    funext k
    show V c main_v34 (((cfg1.win 0).blk t).view.emb (ix2 p k)) = _
    refine congrArg (V c main_v34) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have hw : iblk1 V c 1 t = V c main_arg4 := by
    funext y
    show V c main_arg4 (((cfg1.win 1).blk t).view.emb y) = _
    refine congrArg (V c main_arg4) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  rw [hx, hw]

/-- An index of the result array is in point t's block iff its row is one of the block's 5000 rows. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v35).slice (win1_2.rect t)).set ↔ _
  rw [View.set_slice_whole, Rect.mem_set_unit]
  exact Iff.rfl

/-- Every row of the result array lies in the block of the point its row number divided by 5000 names. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e6, e7⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after all its grid points: the result array of the arrays the region found. -/
theorem final (c : Dev nD) :
    (dat1 V c).arrAt 2 cfg1.N = result (V c main_v34) (V c main_arg4) :=
  (dat1 V c).arrAt_eq_of_cover 2 _ (fun t _ => flushed_eq V c t) cover

end Cert.KernelIdeal.Layer0Weights

end
-- ==== Proof.Layer1Weights.lean ====
/-
  The third region: the node features after the first graph layer [100000, 128] times the second layer's weight
  [128, 64].

  Twenty grid points, each the product of a block of 5000 rows with the whole weight, stored into the same rows of the
  result: entry (n, q) is the sum over k of feature (n, k) · weight (k, q), and the row blocks cover every row.
-/
import proofs.«132030_j83554293776947_1_alg».proof.Proof.Gen.KernelIdeal.Frame
import proofs.«132030_j83554293776947_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Layer1Weights

open Cert.KernelIdeal Cert.KernelIdeal.Gen

theorem hz : (![0, 0] : Fin 2 → Nat) = fun _ => 0 := funext fun a => by fin_cases a <;> rfl

/-- One entry of the result, from the row of the left operand it depends on and the column of the weight. -/
def entry (xrow : Fin 128 → EReal) (W : S128x64.Idx → EReal) (q : Fin 64) : EReal :=
  (∑ k : Fin 128, xrow k * W (ix2 k q))

/-- The whole result array: entry (n, q) is `entry` of row n of the left operand. -/
def result (X : S100000x128.Idx → EReal) (W : S128x64.Idx → EReal) : S100000x64.Idx → EReal :=
  fun i => entry (fun k => X (ix2 (⟨(i 0).val, (i 0).isLt⟩ : Fin 100000) k)) W (⟨(i 1).val, (i 1).isLt⟩ : Fin 64)

/-- The body's stored value at row p, column q of its block. -/
theorem pay_apply (x0 : Vec Ideal S5000x128 .f32) (x1 : Vec Ideal S128x64 .f32) (p : Fin 5000) (q : Fin 64) :
    k2_pay1 (F := Ideal) x0 x1 (ix2 p q) = entry (fun k => x0 (ix2 p k)) x1 q := by
  unfold k2_pay1 entry
  rw [shapeCast_self]
  exact Cert.Lib.matmul_zero_apply (M := 5000) (K := 128) (N := 64) _ none _ _ p q

/-- The index maps of the region's windows, decided over the grid: the row blocks of the left operand and of the
    result move together with the grid point, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the result array of the arrays the region found. -/
theorem flushed_eq (c : Dev nD) (t : Fin cfg2.N) :
    (dat2 V c).flushed 2 t = ((cfg2.win 2).blk t).view.read (Elt Ideal)
      (result (V c main_v51) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e6, e7⟩ := idx_facts t
  funext j
  obtain ⟨p, q, rfl⟩ : ∃ (p : Fin 5000) (q : Fin 64), j = ix2 p q := ⟨j 0, j 1, eq_ix2 j⟩
  refine (pay_apply _ _ p q).trans ?_
  show _ = result (V c main_v51) (V c main_arg6) (((cfg2.win 2).blk t).view.emb (ix2 p q))
  unfold result
  have hq : (⟨((((cfg2.win 2).blk t).view.emb (ix2 p q)) 1).val, ((((cfg2.win 2).blk t).view.emb (ix2 p q)) 1).isLt⟩ : Fin 64) = q :=
    Fin.ext (by show win2_2.index t (1 : Fin 2) * 64 + 1 * q.val = q.val; omega)
  rw [hq]
  have hx : (fun k : Fin 128 => iblk2 V c 0 t (ix2 p k))
      = fun k : Fin 128 => V c main_v51 (ix2 (⟨((((cfg2.win 2).blk t).view.emb (ix2 p q)) 0).val, ((((cfg2.win 2).blk t).view.emb (ix2 p q)) 0).isLt⟩ : Fin 100000) k) := by
    funext k
    show V c main_v51 (((cfg2.win 0).blk t).view.emb (ix2 p k)) = _
    refine congrArg (V c main_v51) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t = V c main_arg6 := by
    funext y
    show V c main_arg6 (((cfg2.win 1).blk t).view.emb y) = _
    refine congrArg (V c main_arg6) (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  rw [hx, hw]

/-- An index of the result array is in point t's block iff its row is one of the block's 5000 rows. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v52).slice (win2_2.rect t)).set ↔ _
  rw [View.set_slice_whole, Rect.mem_set_unit]
  exact Iff.rfl

/-- Every row of the result array lies in the block of the point its row number divided by 5000 names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e6, e7⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The region's output array after all its grid points: the result array of the arrays the region found. -/
theorem final (c : Dev nD) :
    (dat2 V c).arrAt 2 cfg2.N = result (V c main_v51) (V c main_arg6) :=
  (dat2 V c).arrAt_eq_of_cover 2 _ (fun t _ => flushed_eq V c t) cover

end Cert.KernelIdeal.Layer1Weights

end
-- ==== Proof.SwitchHead.lean ====
/-
  The fourth region: the switch head σ (e · w + b) over the edge embeddings e [1600000, 128], with w [128, 1] and
  the bias as a [1, 1] array; σ is the logistic function.

  Two hundred grid points of 8000 edges each. Entry (n, 0) is σ (Σ_k e (n, k) · w (k, 0) + b (0, 0)): it depends on
  row n of the embeddings alone, and the row blocks cover the result.
-/
import proofs.«132030_j83554293776947_1_alg».proof.Proof.Gen.KernelIdeal.Frame
import proofs.«132030_j83554293776947_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.SwitchHead

open Cert.KernelIdeal Cert.KernelIdeal.Gen

theorem hz : (![0, 0] : Fin 2 → Nat) = fun _ => 0 := funext fun a => by fin_cases a <;> rfl

/-- One entry of the result, from the row of the left operand it depends on, the column of the weight and the bias entry of that column. -/
def entry (xrow : Fin 128 → EReal) (W : S128x1.Idx → EReal) (B : S1x1.Idx → EReal) (q : Fin 1) : EReal :=
  Ideal.logistic ((∑ k : Fin 128, xrow k * W (ix2 k q)) + B (ix2 (0 : Fin 1) q))

/-- The whole result array: entry (n, q) is `entry` of row n of the left operand. -/
def result (X : S1600000x128.Idx → EReal) (W : S128x1.Idx → EReal) (B : S1x1.Idx → EReal) : S1600000x1.Idx → EReal :=
  fun i => entry (fun k => X (ix2 (⟨(i 0).val, (i 0).isLt⟩ : Fin 1600000) k)) W B (⟨(i 1).val, (i 1).isLt⟩ : Fin 1)

/-- The same head formula at equal pre-activations. -/
theorem entry_congr {a a' b b' : EReal} (ha : a = a') (hb : b = b') :
    Ideal.logistic (a + b) = Ideal.logistic (a' + b') := by rw [ha, hb]

/-- The body's stored value at row p, column q of its block. -/
theorem pay_apply (x0 : Vec Ideal S8000x128 .f32) (x1 : Vec Ideal S128x1 .f32) (x2 : Vec Ideal S1x1 .f32) (p : Fin 8000) (q : Fin 1) :
    k3_pay1 (F := Ideal) x0 x1 x2 (ix2 p q) = entry (fun k => x0 (ix2 p k)) x1 x2 q := by
  have e2 : broadcastTo S8000x1 x2 broadcasts_S1x1_S8000x1 (ix2 p q) = x2 (ix2 (0 : Fin 1) q) :=
    broadcastTo_1b_ab_apply x2 _ p q
  unfold k3_pay1 entry
  rw [shapeCast_self, shapeCast_self]
  exact entry_congr (Cert.Lib.matmul_zero_apply (M := 8000) (K := 128) (N := 1) _ none _ _ p q) e2

/-- The index maps of the region's windows, decided over the grid: the row blocks of the left operand and of the
    result move together with the grid point, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What grid point t writes back is block t of the result array of the arrays the region found. -/
theorem flushed_eq (c : Dev nD) (t : Fin cfg3.N) :
    (dat3 V c).flushed 3 t = ((cfg3.win 3).blk t).view.read (Elt Ideal)
      (result (V c main_v87) (V c main_arg8) (V c main_v88)) := by
  show (cfg3.win 3).cut (grid3.coords t) ((dat3 V c).after 3 t) = _
  rw [after3_3]
  unfold out3_3
  rw [View.canon_unit_zero hz]
  simp only [View.ld_unit_zero (S := S8000x128) hz, View.ld_unit_zero (S := S128x1) hz, View.ld_unit_zero (S := S1x1) hz]
  obtain ⟨e0, e1, e2, e3, e4, e5, e6, e7⟩ := idx_facts t
  funext j
  obtain ⟨p, q, rfl⟩ : ∃ (p : Fin 8000) (q : Fin 1), j = ix2 p q := ⟨j 0, j 1, eq_ix2 j⟩
  refine (pay_apply _ _ _ p q).trans ?_
  show _ = result (V c main_v87) (V c main_arg8) (V c main_v88) (((cfg3.win 3).blk t).view.emb (ix2 p q))
  unfold result
  have hq : (⟨((((cfg3.win 3).blk t).view.emb (ix2 p q)) 1).val, ((((cfg3.win 3).blk t).view.emb (ix2 p q)) 1).isLt⟩ : Fin 1) = q :=
    Fin.ext (by show win3_3.index t (1 : Fin 2) * 1 + 1 * q.val = q.val; omega)
  rw [hq]
  have hx : (fun k : Fin 128 => iblk3 V c 0 t (ix2 p k))
      = fun k : Fin 128 => V c main_v87 (ix2 (⟨((((cfg3.win 3).blk t).view.emb (ix2 p q)) 0).val, ((((cfg3.win 3).blk t).view.emb (ix2 p q)) 0).isLt⟩ : Fin 1600000) k) := by
    funext k
    show V c main_v87 (((cfg3.win 0).blk t).view.emb (ix2 p k)) = _
    refine congrArg (V c main_v87) (funext fun a => Fin.ext ?_)
    match a with
    | ⟨0, _⟩ => show win3_0.index t (0 : Fin 2) * 8000 + 1 * p.val = win3_3.index t (0 : Fin 2) * 8000 + 1 * p.val; omega
    | ⟨1, _⟩ => show win3_0.index t (1 : Fin 2) * 128 + 1 * k.val = k.val; omega
  have hw : iblk3 V c 1 t = V c main_arg8 := by
    funext y
    show V c main_arg8 (((cfg3.win 1).blk t).view.emb y) = _
    refine congrArg (V c main_arg8) (funext fun a => Fin.ext ?_)
    match a with
    | ⟨0, _⟩ => show win3_1.index t (0 : Fin 2) * 128 + 1 * (y 0).val = (y 0).val; omega
    | ⟨1, _⟩ => show win3_1.index t (1 : Fin 2) * 1 + 1 * (y 1).val = (y 1).val; omega
  have hb : iblk3 V c 2 t = V c main_v88 := by
    funext y
    show V c main_v88 (((cfg3.win 2).blk t).view.emb y) = _
    refine congrArg (V c main_v88) (funext fun a => Fin.ext ?_)
    match a with
    | ⟨0, _⟩ => show win3_2.index t (0 : Fin 2) * 1 + 1 * (y 0).val = (y 0).val; omega
    | ⟨1, _⟩ => show win3_2.index t (1 : Fin 2) * 1 + 1 * (y 1).val = (y 1).val; omega
  rw [hx, hw, hb]

/-- An index of the result array is in point t's block iff its row is one of the block's 8000 rows. -/
theorem mem_blk (t : Fin cfg3.N) (i : S1600000x1.Idx) :
    i ∈ ((cfg3.win 3).blk t).view.set ↔ ∀ a : Fin 2, win3_3.index t a * S8000x1.size a ≤ (i a).val ∧ (i a).val < win3_3.index t a * S8000x1.size a + S8000x1.size a := by
  show i ∈ ((View.whole main_v89).slice (win3_3.rect t)).set ↔ _
  rw [View.set_slice_whole, Rect.mem_set_unit]
  exact Iff.rfl

/-- Every row of the result array lies in the block of the point its row number divided by 8000 names. -/
theorem cover (i : S1600000x1.Idx) : ∃ t : Fin cfg3.N, (cfg3.win 3).flush t = true ∧ i ∈ ((cfg3.win 3).blk t).view.set := by
  have hi0 : (i 0).val < 1600000 := (i 0).isLt
  have hi1 : (i 1).val < 1 := (i 1).isLt
  have hN : cfg3.N = 200 := N_3
  let t : Fin cfg3.N := ⟨(i 0).val / 8000, by rw [hN]; omega⟩
  obtain ⟨e0, e1, e2, e3, e4, e5, e6, e7⟩ := idx_facts t
  have ht : t.val = (i 0).val / 8000 := rfl
  refine ⟨t, flush3_3 t, ?_⟩
  rw [mem_blk]
  intro a
  match a with
  | ⟨0, _⟩ => show win3_3.index t (0 : Fin 2) * 8000 ≤ (i 0).val ∧ (i 0).val < win3_3.index t (0 : Fin 2) * 8000 + 8000; omega
  | ⟨1, _⟩ => show win3_3.index t (1 : Fin 2) * 1 ≤ (i 1).val ∧ (i 1).val < win3_3.index t (1 : Fin 2) * 1 + 1; omega

/-- The region's output array after all its grid points: the result array of the arrays the region found. -/
theorem final (c : Dev nD) :
    (dat3 V c).arrAt 3 cfg3.N = result (V c main_v87) (V c main_arg8) (V c main_v88) :=
  (dat3 V c).arrAt_eq_of_cover 3 _ (fun t _ => flushed_eq V c t) cover

end Cert.KernelIdeal.SwitchHead

end
-- ==== Proof.VoltageHead.lean ====
/-
  The fifth region: the voltage head (c₀ + c₁ · σ (h · w + b))² over the final node embeddings h [100000, 64], with
  w [64, 1], the bias as a [1, 1] array, σ the logistic function and c₀, c₁ the f32 words of 0.9 and 0.2.

  Twenty grid points of 5000 nodes each; entry (n, 0) depends on row n of the embeddings alone, and the row blocks
  cover the result.
-/
import proofs.«132030_j83554293776947_1_alg».proof.Proof.Gen.KernelIdeal.Frame
import proofs.«132030_j83554293776947_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.VoltageHead

open Cert.KernelIdeal Cert.KernelIdeal.Gen

theorem hz : (![0, 0] : Fin 2 → Nat) = fun _ => 0 := funext fun a => by fin_cases a <;> rfl

/-- One entry of the result, from the row of the left operand it depends on, the column of the weight and the bias entry of that column. -/
def entry (xrow : Fin 64 → EReal) (W : S64x1.Idx → EReal) (B : S1x1.Idx → EReal) (q : Fin 1) : EReal :=
  (Ideal.ofBits .f32 0x3F666666#32 + Ideal.ofBits .f32 0x3E4CCCCD#32 * Ideal.logistic ((∑ k : Fin 64, xrow k * W (ix2 k q)) + B (ix2 (0 : Fin 1) q))) * (Ideal.ofBits .f32 0x3F666666#32 + Ideal.ofBits .f32 0x3E4CCCCD#32 * Ideal.logistic ((∑ k : Fin 64, xrow k * W (ix2 k q)) + B (ix2 (0 : Fin 1) q)))

/-- The whole result array: entry (n, q) is `entry` of row n of the left operand. -/
def result (X : S100000x64.Idx → EReal) (W : S64x1.Idx → EReal) (B : S1x1.Idx → EReal) : S100000x1.Idx → EReal :=
  fun i => entry (fun k => X (ix2 (⟨(i 0).val, (i 0).isLt⟩ : Fin 100000) k)) W B (⟨(i 1).val, (i 1).isLt⟩ : Fin 1)

/-- The same head formula at equal pre-activations. -/
theorem entry_congr {a a' b b' : EReal} (ha : a = a') (hb : b = b') :
    (Ideal.ofBits .f32 0x3F666666#32 + Ideal.ofBits .f32 0x3E4CCCCD#32 * Ideal.logistic (a + b)) * (Ideal.ofBits .f32 0x3F666666#32 + Ideal.ofBits .f32 0x3E4CCCCD#32 * Ideal.logistic (a + b))
      = (Ideal.ofBits .f32 0x3F666666#32 + Ideal.ofBits .f32 0x3E4CCCCD#32 * Ideal.logistic (a' + b')) * (Ideal.ofBits .f32 0x3F666666#32 + Ideal.ofBits .f32 0x3E4CCCCD#32 * Ideal.logistic (a' + b')) := by rw [ha, hb]

/-- The body's stored value at row p, column q of its block. -/
theorem pay_apply (x0 : Vec Ideal S5000x64 .f32) (x1 : Vec Ideal S64x1 .f32) (x2 : Vec Ideal S1x1 .f32) (p : Fin 5000) (q : Fin 1) :
    k4_pay1 (F := Ideal) x0 x1 x2 (ix2 p q) = entry (fun k => x0 (ix2 p k)) x1 x2 q := by
  have e2 : broadcastTo S5000x1 x2 broadcasts_S1x1_S5000x1 (ix2 p q) = x2 (ix2 (0 : Fin 1) q) :=
    broadcastTo_1b_ab_apply x2 _ p q
  unfold k4_pay1 entry
  rw [shapeCast_self, shapeCast_self]
  exact entry_congr (Cert.Lib.matmul_zero_apply (M := 5000) (K := 64) (N := 1) _ none _ _ p q) e2

/-- The index maps of the region's windows, decided over the grid: the row blocks of the left operand and of the
    result move together with the grid point, every other block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What grid point t writes back is block t of the result array of the arrays the region found. -/
theorem flushed_eq (c : Dev nD) (t : Fin cfg4.N) :
    (dat4 V c).flushed 3 t = ((cfg4.win 3).blk t).view.read (Elt Ideal)
      (result (V c main_v68) (V c main_arg10) (V c main_v91)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x1) hz, View.ld_unit_zero (S := S1x1) hz]
  obtain ⟨e0, e1, e2, e3, e4, e5, e6, e7⟩ := idx_facts t
  funext j
  obtain ⟨p, q, rfl⟩ : ∃ (p : Fin 5000) (q : Fin 1), j = ix2 p q := ⟨j 0, j 1, eq_ix2 j⟩
  refine (pay_apply _ _ _ p q).trans ?_
  show _ = result (V c main_v68) (V c main_arg10) (V c main_v91) (((cfg4.win 3).blk t).view.emb (ix2 p q))
  unfold result
  have hq : (⟨((((cfg4.win 3).blk t).view.emb (ix2 p q)) 1).val, ((((cfg4.win 3).blk t).view.emb (ix2 p q)) 1).isLt⟩ : Fin 1) = q :=
    Fin.ext (by show win4_3.index t (1 : Fin 2) * 1 + 1 * q.val = q.val; omega)
  rw [hq]
  have hx : (fun k : Fin 64 => iblk4 V c 0 t (ix2 p k))
      = fun k : Fin 64 => V c main_v68 (ix2 (⟨((((cfg4.win 3).blk t).view.emb (ix2 p q)) 0).val, ((((cfg4.win 3).blk t).view.emb (ix2 p q)) 0).isLt⟩ : Fin 100000) k) := by
    funext k
    show V c main_v68 (((cfg4.win 0).blk t).view.emb (ix2 p k)) = _
    refine congrArg (V c main_v68) (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  have hw : iblk4 V c 1 t = V c main_arg10 := by
    funext y
    show V c main_arg10 (((cfg4.win 1).blk t).view.emb y) = _
    refine congrArg (V c main_arg10) (funext fun a => Fin.ext ?_)
    match a with
    | ⟨0, _⟩ => show win4_1.index t (0 : Fin 2) * 64 + 1 * (y 0).val = (y 0).val; omega
    | ⟨1, _⟩ => show win4_1.index t (1 : Fin 2) * 1 + 1 * (y 1).val = (y 1).val; omega
  have hb : iblk4 V c 2 t = V c main_v91 := by
    funext y
    show V c main_v91 (((cfg4.win 2).blk t).view.emb y) = _
    refine congrArg (V c main_v91) (funext fun a => Fin.ext ?_)
    match a with
    | ⟨0, _⟩ => show win4_2.index t (0 : Fin 2) * 1 + 1 * (y 0).val = (y 0).val; omega
    | ⟨1, _⟩ => show win4_2.index t (1 : Fin 2) * 1 + 1 * (y 1).val = (y 1).val; omega
  rw [hx, hw, hb]

/-- An index of the result array is in point t's block iff its row is one of the block's 5000 rows. -/
theorem mem_blk (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v92).slice (win4_3.rect t)).set ↔ _
  rw [View.set_slice_whole, Rect.mem_set_unit]
  exact Iff.rfl

/-- Every row of the result array lies in the block of the point its row number divided by 5000 names. -/
theorem cover (i : S100000x1.Idx) : ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨e0, e1, e2, e3, e4, e5, e6, e7⟩ := idx_facts t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-- The region's output array after all its grid points: the result array of the arrays the region found. -/
theorem final (c : Dev nD) :
    (dat4 V c).arrAt 3 cfg4.N = result (V c main_v68) (V c main_arg10) (V c main_v91) :=
  (dat4 V c).arrAt_eq_of_cover 3 _ (fun t _ => flushed_eq V c t) cover

end Cert.KernelIdeal.VoltageHead

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.LibColumnToVec.lean ====
/-
  An [a, 1] array shape-cast to the vector [a], read at i: the operand at (i, 0). Any a, any element type.
-/
import Idealize.ShloMosaic.Lib.Pipeline.Value
import Idealize.ShloMosaic.Lib.ValueIdx

namespace Cert.Lib

open Idealize.ShloMosaic Idealize.ShloMosaic.ValueIdx

variable {α : Type}

/-- A COLUMN [a, 1] cast to the vector [a] reads, at i, the column's entry (i, 0). -/
theorem colToVec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h (ix1 i) (ix2 i (0 : Fin 1)) (by
    rw [Shape.rowMajor_val_two, Shape.rowMajor_val_one]
    show i.val * 1 + 0 = i.val
    omega)

end Cert.Lib
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.RefLayers.lean ====
/-
  The reference's dense stages are the kernel regions' result arrays.

  Each of the reference's five dense stages — a matrix product, for three of them followed by a bias and an
  activation — read at an index is the entry formula of the corresponding kernel region: the host's contraction is the
  sum over k of left (n, k) · right (k, q), the bias vector broadcast to a row and then down the rows contributes its
  entry q, the host's relu is the maximum with 0, and the logistic function the host spells as 1 / (1 + e^(-z)) is the
  logistic function. For the two heads the reference flattens the one-column result before the activation and the
  kernel after it: at an index the two orders read the same entry.
-/
import proofs.«132030_j83554293776947_1_alg».proof.Proof.RefRead
import proofs.«132030_j83554293776947_1_alg».proof.Proof.Encoder
import proofs.«132030_j83554293776947_1_alg».proof.Proof.Layer0Weights
import proofs.«132030_j83554293776947_1_alg».proof.Proof.Layer1Weights
import proofs.«132030_j83554293776947_1_alg».proof.Proof.SwitchHead
import proofs.«132030_j83554293776947_1_alg».proof.Proof.VoltageHead
import proofs.«132030_j83554293776947_1_alg».proof.Proof.LibRowLayout
import proofs.«132030_j83554293776947_1_alg».proof.Proof.LibColumnToVec
import proofs.«132030_j83554293776947_1_alg».proof.Proof.LibHostLogistic

set_option maxRecDepth 16384

noncomputable section

namespace Cert.Bridge

open Idealize.ShloMosaic Idealize.ShloMosaic.ValueIdx
open Cert.KernelIdeal Cert.KernelIdeal.Gen Cert.ReferenceIdeal.Read

/-- The logistic function as the host spells it, at one extended real. -/
theorem logistic_spelt (z : Ideal .f32) :
    FloatOps.hostDivf (F := Ideal) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.div 1 (1 + Ideal.exp (-z))
  rw [Cert.Lib.one_f32]

/-- The encoder stage relu (x · W + b). -/
theorem encoder_ref (x0 : S100000x16.Idx → EReal) (x2 : S16x128.Idx → EReal) (x3 : S128.Idx → EReal) :
    val_main_v21 (F := Ideal) x0 x2 x3 = Encoder.result x0 x2 (shapeCast S1x128 x3 shapeCasts_S128_S1x128) := by
  funext i
  rw [val_main_v21_apply, val_main_v20_apply, val_main_v17_apply, val_main_v19_apply, val_main_v18_apply,
    val_main_call1_v0_apply, val_main_call1_cst_apply]
  unfold Encoder.result Encoder.entry
  have el : ∀ k : Fin 16, lidx_main_v17 i k = ix2 (⟨((i) 0).val, ((i) 0).isLt⟩ : Fin 100000) k :=
    fun k => funext fun a => by match a with | ⟨0, _⟩ => rfl | ⟨1, _⟩ => rfl
  have er : ∀ k : Fin 16, ridx_main_v17 i k = ix2 k (⟨((i) 1).val, ((i) 1).isLt⟩ : Fin 128) :=
    fun k => funext fun a => by match a with | ⟨0, _⟩ => rfl | ⟨1, _⟩ => rfl
  have eb : shapeCast S1x128 x3 shapeCasts_S128_S1x128 (ix2 (0 : Fin 1) (⟨(i 1).val, (i 1).isLt⟩ : Fin 128))
      = x3 (idx_main_v18 (idx_main_v19 i)) :=
    (Cert.Lib.vecToRow_apply x3 _ _).trans (congrArg x3 (funext fun a => by match a with | ⟨0, _⟩ => rfl))
  simp only [el, er]
  rw [eb]
  rfl

/-- The first graph layer's weight product. -/
theorem layer0_ref (x0 : S100000x16.Idx → EReal) (x2 : S16x128.Idx → EReal) (x3 : S128.Idx → EReal) (x4 : S128x128.Idx → EReal) :
    val_main_v22 (F := Ideal) x0 x2 x3 x4 = Layer0Weights.result (val_main_v21 (F := Ideal) x0 x2 x3) x4 := by
  funext i
  rw [val_main_v22_apply]
  unfold Layer0Weights.result Layer0Weights.entry
  have el : ∀ k : Fin 128, lidx_main_v22 i k = ix2 (⟨((i) 0).val, ((i) 0).isLt⟩ : Fin 100000) k :=
    fun k => funext fun a => by match a with | ⟨0, _⟩ => rfl | ⟨1, _⟩ => rfl
  have er : ∀ k : Fin 128, ridx_main_v22 i k = ix2 k (⟨((i) 1).val, ((i) 1).isLt⟩ : Fin 128) :=
    fun k => funext fun a => by match a with | ⟨0, _⟩ => rfl | ⟨1, _⟩ => rfl
  simp only [el, er]

/-- The second graph layer's weight product. -/
theorem layer1_ref (x0 : S100000x16.Idx → EReal) (x1 : S2x1600000.Idx → BitVec 32) (x2 : S16x128.Idx → EReal) (x3 : S128.Idx → EReal) (x4 : S128x128.Idx → EReal) (x5 : S128.Idx → EReal) (x6 : S128x64.Idx → EReal) :
    val_main_v55 (F := Ideal) x0 x1 x2 x3 x4 x5 x6 = Layer1Weights.result (val_main_v54 (F := Ideal) x0 x1 x2 x3 x4 x5) x6 := by
  funext i
  rw [val_main_v55_apply]
  unfold Layer1Weights.result Layer1Weights.entry
  have el : ∀ k : Fin 128, lidx_main_v55 i k = ix2 (⟨((i) 0).val, ((i) 0).isLt⟩ : Fin 100000) k :=
    fun k => funext fun a => by match a with | ⟨0, _⟩ => rfl | ⟨1, _⟩ => rfl
  have er : ∀ k : Fin 128, ridx_main_v55 i k = ix2 k (⟨((i) 1).val, ((i) 1).isLt⟩ : Fin 64) :=
    fun k => funext fun a => by match a with | ⟨0, _⟩ => rfl | ⟨1, _⟩ => rfl
  simp only [el, er]

/-- The switch head: the reference flattens e · w + b to a vector and then applies the logistic function; the kernel
    region applies it to the column and the program flattens the result. -/
theorem switch_ref (x0 : S100000x16.Idx → EReal) (x1 : S2x1600000.Idx → BitVec 32) (x2 : S16x128.Idx → EReal) (x3 : S128.Idx → EReal) (x4 : S128x128.Idx → EReal) (x5 : S128.Idx → EReal) (x6 : S128x64.Idx → EReal) (x7 : S64.Idx → EReal) (x8 : S128x1.Idx → EReal) (x9 : S1.Idx → EReal) :
    val_main_v117 (F := Ideal) x0 x1 x2 x3 x4 x5 x6 x7 x8 x9
      = shapeCast S1600000 (SwitchHead.result (val_main_v106 (F := Ideal) x0 x1 x2 x3 x4 x5 x6 x7) x8
          (shapeCast S1x1 x9 shapeCasts_S1_S1x1)) shapeCasts_S1600000x1_S1600000 := by
  funext i
  obtain ⟨n, rfl⟩ : ∃ n : Fin 1600000, i = ix1 n := ⟨i 0, eq_ix1 i⟩
  rw [val_main_v117_apply, val_main_v116_apply, val_main_cst_22_apply, val_main_v115_apply, val_main_v114_apply,
    val_main_cst_21_apply, val_main_v113_apply, val_main_v112_apply, val_main_v111_apply, val_main_v110_apply,
    val_main_v107_apply, val_main_v109_apply, val_main_v108_apply]
  refine Eq.trans ?_ (Cert.Lib.colToVec_apply _ _ n).symm
  unfold SwitchHead.result SwitchHead.entry
  have el : ∀ k : Fin 128, lidx_main_v107 (idx_main_v111 (ix1 n)) k = ix2 (⟨(((idx_main_v111 (ix1 n))) 0).val, (((idx_main_v111 (ix1 n))) 0).isLt⟩ : Fin 1600000) k :=
    fun k => funext fun a => by match a with | ⟨0, _⟩ => rfl | ⟨1, _⟩ => rfl
  have er : ∀ k : Fin 128, ridx_main_v107 (idx_main_v111 (ix1 n)) k = ix2 k (⟨(((idx_main_v111 (ix1 n))) 1).val, (((idx_main_v111 (ix1 n))) 1).isLt⟩ : Fin 1) :=
    fun k => funext fun a => by match a with | ⟨0, _⟩ => rfl | ⟨1, _⟩ => rfl
  have en : (⟨((ix2 n (0 : Fin 1) : S1600000x1.Idx) 0).val, ((ix2 n (0 : Fin 1) : S1600000x1.Idx) 0).isLt⟩ : Fin 1600000)
      = (⟨((idx_main_v111 (ix1 n)) 0).val, ((idx_main_v111 (ix1 n)) 0).isLt⟩ : Fin 1600000) :=
    Fin.ext (by show n.val = n.val / 1; omega)
  have eq1 : (⟨((ix2 n (0 : Fin 1) : S1600000x1.Idx) 1).val, ((ix2 n (0 : Fin 1) : S1600000x1.Idx) 1).isLt⟩ : Fin 1)
      = (⟨((idx_main_v111 (ix1 n)) 1).val, ((idx_main_v111 (ix1 n)) 1).isLt⟩ : Fin 1) := Fin.ext rfl
  have eb : shapeCast S1x1 x9 shapeCasts_S1_S1x1 (ix2 (0 : Fin 1) (⟨((idx_main_v111 (ix1 n)) 1).val, ((idx_main_v111 (ix1 n)) 1).isLt⟩ : Fin 1))
      = x9 (idx_main_v108 (idx_main_v109 (idx_main_v111 (ix1 n)))) :=
    (Cert.Lib.vecToRow_apply x9 _ _).trans (congrArg x9 (funext fun a => by match a with | ⟨0, _⟩ => rfl))
  simp only [el, er]
  rw [en, eq1, eb]
  exact logistic_spelt _

/-- The voltage head, likewise: flatten then σ and the affine square, against σ and the affine square then flatten. -/
theorem voltage_ref (x0 : S100000x16.Idx → EReal) (x1 : S2x1600000.Idx → BitVec 32) (x2 : S16x128.Idx → EReal) (x3 : S128.Idx → EReal) (x4 : S128x128.Idx → EReal) (x5 : S128.Idx → EReal) (x6 : S128x64.Idx → EReal) (x7 : S64.Idx → EReal) (x10 : S64x1.Idx → EReal) (x11 : S1.Idx → EReal) :
    val_main_v133 (F := Ideal) x0 x1 x2 x3 x4 x5 x6 x7 x10 x11
      = shapeCast S100000 (VoltageHead.result (val_main_v87 (F := Ideal) x0 x1 x2 x3 x4 x5 x6 x7) x10
          (shapeCast S1x1 x11 shapeCasts_S1_S1x1)) shapeCasts_S100000x1_S100000 := by
  funext i
  obtain ⟨n, rfl⟩ : ∃ n : Fin 100000, i = ix1 n := ⟨i 0, eq_ix1 i⟩
  rw [val_main_v133_apply, val_main_v132_apply, val_main_v131_apply, val_main_cst_26_apply, val_main_v130_apply,
    val_main_v129_apply, val_main_cst_25_apply, val_main_v128_apply, val_main_v127_apply, val_main_cst_24_apply,
    val_main_v126_apply, val_main_v125_apply, val_main_cst_23_apply, val_main_v124_apply, val_main_v123_apply,
    val_main_v122_apply, val_main_v121_apply, val_main_v118_apply, val_main_v120_apply, val_main_v119_apply]
  refine Eq.trans ?_ (Cert.Lib.colToVec_apply _ _ n).symm
  unfold VoltageHead.result VoltageHead.entry
  have el : ∀ k : Fin 64, lidx_main_v118 (idx_main_v122 (ix1 n)) k = ix2 (⟨(((idx_main_v122 (ix1 n))) 0).val, (((idx_main_v122 (ix1 n))) 0).isLt⟩ : Fin 100000) k :=
    fun k => funext fun a => by match a with | ⟨0, _⟩ => rfl | ⟨1, _⟩ => rfl
  have er : ∀ k : Fin 64, ridx_main_v118 (idx_main_v122 (ix1 n)) k = ix2 k (⟨(((idx_main_v122 (ix1 n))) 1).val, (((idx_main_v122 (ix1 n))) 1).isLt⟩ : Fin 1) :=
    fun k => funext fun a => by match a with | ⟨0, _⟩ => rfl | ⟨1, _⟩ => rfl
  have en : (⟨((ix2 n (0 : Fin 1) : S100000x1.Idx) 0).val, ((ix2 n (0 : Fin 1) : S100000x1.Idx) 0).isLt⟩ : Fin 100000)
      = (⟨((idx_main_v122 (ix1 n)) 0).val, ((idx_main_v122 (ix1 n)) 0).isLt⟩ : Fin 100000) :=
    Fin.ext (by show n.val = n.val / 1; omega)
  have eq1 : (⟨((ix2 n (0 : Fin 1) : S100000x1.Idx) 1).val, ((ix2 n (0 : Fin 1) : S100000x1.Idx) 1).isLt⟩ : Fin 1)
      = (⟨((idx_main_v122 (ix1 n)) 1).val, ((idx_main_v122 (ix1 n)) 1).isLt⟩ : Fin 1) := Fin.ext rfl
  have eb : shapeCast S1x1 x11 shapeCasts_S1_S1x1 (ix2 (0 : Fin 1) (⟨((idx_main_v122 (ix1 n)) 1).val, ((idx_main_v122 (ix1 n)) 1).isLt⟩ : Fin 1))
      = x11 (idx_main_v119 (idx_main_v120 (idx_main_v122 (ix1 n)))) :=
    (Cert.Lib.vecToRow_apply x11 _ _).trans (congrArg x11 (funext fun a => by match a with | ⟨0, _⟩ => rfl))
  simp only [el, er]
  rw [en, eq1, eb, logistic_spelt]
  rfl

end Cert.Bridge

end
-- ==== Proof.Walk.lean ====
/-
  The kernel program's two results are the reference's.

  The kernel program's buffers are followed segment by segment from the launch memory. The index vectors and the
  per-edge scale come from the same host operations the reference applies to the edge list. Each region's output array
  is its result array of the arrays it found (the region modules), which is the reference's dense stage of the same
  inputs. Each host stretch between regions — gather by source, scale, accumulate by destination, bias, relu; the edge
  embeddings' gathers and join; the final flattenings — applies to those arrays the operations the reference applies
  to its own, so stage by stage the kernel's array is the reference's, up to the two results.
-/
import proofs.«132030_j83554293776947_1_alg».proof.Proof.Carry
import proofs.«132030_j83554293776947_1_alg».proof.Proof.RefLayers

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg)

/-! ## Three short stretches the program inlines from called functions, read at any buffer contents -/

/-- The `where` of the inverse square root: select between it and the broadcast zero. -/
theorem where_result (V : Valuation τ sig (Elt Ideal)) :
    StableHlo.after hostOps0_1 V (Proc.devRef .tc main_v16)
      = select (V (Proc.devRef .tc main_v12)) (V (Proc.devRef .tc main_v15)) (broadcastInDim S100000 ![] bcast_S_S100000 (V (Proc.devRef .tc main_cst_3))) := by
  after_results_simp
  rfl

/-- The relu after the first graph layer. -/
theorem relu_result (V : Valuation τ sig (Elt Ideal)) :
    StableHlo.after hostOps2_1 V (Proc.devRef .tc main_v51)
      = maximumf (V (Proc.devRef .tc main_v50)) (broadcastInDim S100000x128 ![] bcast_S_S100000x128 (constant (F := Ideal) S_ .f32 0x00000000#32)) := by
  after_results_simp
  rfl

/-- The relu after the second graph layer. -/
theorem relu0_result (V : Valuation τ sig (Elt Ideal)) :
    StableHlo.after hostOps3_1 V (Proc.devRef .tc main_v68)
      = maximumf (V (Proc.devRef .tc main_v67)) (broadcastInDim S100000x64 ![] bcast_S_S100000x64 (constant (F := Ideal) S_ .f32 0x00000000#32)) := by
  after_results_simp
  rfl

/-! ## Before the first region: the index vectors, the inverse square roots of the degrees, the per-edge scale, the bias row -/

theorem W1_v3 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results_simp
  rfl

theorem W1_v6 (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results_simp
  rfl

theorem W1_v12 (c : Dev nD) : W1 m ρ c (Proc.devRef .tc main_v12) = val_main_v12 (F := Ideal) (m ((c.tc : Thread nD τ).loc main_arg1)) := by
  show StableHlo.after hostOps0 (W0 m ρ c) (Proc.devRef .tc main_v12) = _
  after_results_simp
  rfl

theorem W1_v15 (c : Dev nD) : W1 m ρ c (Proc.devRef .tc main_v15) = val_main_v15 (F := Ideal) (m ((c.tc : Thread nD τ).loc main_arg1)) := by
  show StableHlo.after hostOps0 (W0 m ρ c) (Proc.devRef .tc main_v15) = _
  after_results_simp
  rfl

theorem W1_cst3 (c : Dev nD) : W1 m ρ c (Proc.devRef .tc main_cst_3) = val_main_cst_3 (F := Ideal) := by
  show StableHlo.after hostOps0 (W0 m ρ c) (Proc.devRef .tc main_cst_3) = _
  after_results_simp
  rfl

theorem W2_v16 (c : Dev nD) : W2 m ρ c (Proc.devRef .tc main_v16) = val_main_v16 (F := Ideal) (m ((c.tc : Thread nD τ).loc main_arg1)) := by
  show StableHlo.after hostOps0_1 (W1 m ρ c) (Proc.devRef .tc main_v16) = _
  rw [where_result, W1_v12, W1_v15, W1_cst3]
  rfl

theorem W2_v3 (c : Dev nD) : W2 m ρ c (Proc.devRef .tc main_v3) = val_main_v3 (F := Ideal) (m ((c.tc : Thread nD τ).loc main_arg1)) :=
  (Cert.Lib.after_keeps (seg := hostOps0_1) (b := main_v3) (W1 m ρ c) (by not_written)).trans (W1_v3 m ρ c)

theorem W2_v6 (c : Dev nD) : W2 m ρ c (Proc.devRef .tc main_v6) = val_main_v6 (F := Ideal) (m ((c.tc : Thread nD τ).loc main_arg1)) :=
  (Cert.Lib.after_keeps (seg := hostOps0_1) (b := main_v6) (W1 m ρ c) (by not_written)).trans (W1_v6 m ρ c)

theorem W3_v3 (c : Dev nD) : W3 m ρ c (Proc.devRef .tc main_v3) = val_main_v3 (F := Ideal) (m ((c.tc : Thread nD τ).loc main_arg1)) :=
  (Cert.Lib.after_keeps (seg := hostOps0_2) (b := main_v3) (W2 m ρ c) (by not_written)).trans (W2_v3 m ρ c)

theorem W3_v6 (c : Dev nD) : W3 m ρ c (Proc.devRef .tc main_v6) = val_main_v6 (F := Ideal) (m ((c.tc : Thread nD τ).loc main_arg1)) :=
  (Cert.Lib.after_keeps (seg := hostOps0_2) (b := main_v6) (W2 m ρ c) (by not_written)).trans (W2_v6 m ρ c)

theorem W3_v32 (c : Dev nD) : W3 m ρ c (Proc.devRef .tc main_v32) = val_main_v45 (F := Ideal) (m ((c.tc : Thread nD τ).loc main_arg1)) := by
  have h16 := W2_v16 m ρ c
  have h3 := W2_v3 m ρ c
  have h6 := W2_v6 m ρ c
  show StableHlo.after hostOps0_2 (W2 m ρ c) (Proc.devRef .tc main_v32) = _
  generalize W2 m ρ c = V at h16 h3 h6 ⊢
  after_results_simp
  rw [h16, h3, h6]
  rfl

theorem W3_v33 (c : Dev nD) : W3 m ρ c (Proc.devRef .tc main_v33) = shapeCast S1x128 (m ((c.tc : Thread nD τ).loc main_arg3)) shapeCasts_S128_S1x128 := by
  have h := Carry.W2_main_arg3 m ρ c
  show StableHlo.after hostOps0_2 (W2 m ρ c) (Proc.devRef .tc main_v33) = _
  generalize W2 m ρ c = V at h ⊢
  after_results_simp
  rw [h]
  rfl

/-! ## The encoder and the first graph layer -/

theorem W4_v34 (c : Dev nD) : W4 m ρ c (Proc.devRef .tc main_v34) = val_main_v21 (F := Ideal) (m ((c.tc : Thread nD τ).loc main_arg0)) (m ((c.tc : Thread nD τ).loc main_arg2)) (m ((c.tc : Thread nD τ).loc main_arg3)) := by
  refine (W4_arr m ρ c 3).trans ?_
  rw [Encoder.final]
  show Encoder.result (W3 m ρ c (Proc.devRef .tc main_arg0)) (W3 m ρ c (Proc.devRef .tc main_arg2)) (W3 m ρ c (Proc.devRef .tc main_v33)) = _
  rw [Carry.W3_main_arg0, Carry.W3_main_arg2, W3_v33, Cert.Bridge.encoder_ref]

theorem W5_v35 (c : Dev nD) : W5 m ρ c (Proc.devRef .tc main_v35) = val_main_v22 (F := Ideal) (m ((c.tc : Thread nD τ).loc main_arg0)) (m ((c.tc : Thread nD τ).loc main_arg2)) (m ((c.tc : Thread nD τ).loc main_arg3)) (m ((c.tc : Thread nD τ).loc main_arg4)) := by
  refine (W5_arr m ρ c 2).trans ?_
  rw [Layer0Weights.final]
  show Layer0Weights.result (W4 m ρ c (Proc.devRef .tc main_v34)) (W4 m ρ c (Proc.devRef .tc main_arg4)) = _
  rw [W4_v34, Carry.W4_main_arg4, Cert.Bridge.layer0_ref]

theorem W6_v50 (c : Dev nD) : W6 m ρ c (Proc.devRef .tc main_v50) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h35 := W5_v35 m ρ c
  have h3 := (Carry.W5_main_v3_from3 m ρ c).trans (W3_v3 m ρ c)
  have h6 := (Carry.W5_main_v6_from3 m ρ c).trans (W3_v6 m ρ c)
  have h32 := (Carry.W5_main_v32_from3 m ρ c).trans (W3_v32 m ρ c)
  have h5 := Carry.W5_main_arg5 m ρ c
  show StableHlo.after hostOps2 (W5 m ρ c) (Proc.devRef .tc main_v50) = _
  generalize W5 m ρ c = V at h35 h3 h6 h32 h5 ⊢
  after_results_simp
  rw [h35, h3, h6, h32, h5]
  rfl

theorem W7_v51 (c : Dev nD) : W7 m ρ c (Proc.devRef .tc main_v51) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2_1 (W6 m ρ c) (Proc.devRef .tc main_v51) = _
  rw [relu_result, W6_v50]
  rfl

/-! ## The edge embeddings' stretch, cut before its join: the two gathers by an edge's end nodes, then the join -/

/-- The stretch's operations up to the second gather. -/
abbrev edgeGathers : List (HloOp τ sig (Elt Ideal)) :=
  [ StableHlo.unary main_arg1 main_v69 ((extractStridedSlice S1x1600000 ![0, 0] · slices_S2x1600000_S1x1600000_0_0) : (⟨S2x1600000, .i32⟩ : BufTy).Contents (Elt Ideal) → (⟨S1x1600000, .i32⟩ : BufTy).Contents (Elt Ideal)),
    StableHlo.reshape main_v69 main_v70 rfl shapeCasts_S1x1600000_S1600000,
    StableHlo.nullary main_c_13 (constantI S_ 32 0#32),
    StableHlo.unary main_c_13 main_v71 (broadcastInDim S1600000 ![] bcast_S_S1600000 : (⟨S_, .i32⟩ : BufTy).Contents (Elt Ideal) → (⟨S1600000, .i32⟩ : BufTy).Contents (Elt Ideal)),
    StableHlo.binary main_v70 main_v71 main_v72 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_14 (constantI S_ 32 100000#32),
    StableHlo.unary main_c_14 main_v73 (broadcastInDim S1600000 ![] bcast_S_S1600000 : (⟨S_, .i32⟩ : BufTy).Contents (Elt Ideal) → (⟨S1600000, .i32⟩ : BufTy).Contents (Elt Ideal)),
    StableHlo.binary main_v70 main_v73 main_v74 (addi : (⟨S1600000, .i32⟩ : BufTy).Contents (Elt Ideal) → (⟨S1600000, .i32⟩ : BufTy).Contents (Elt Ideal) → (⟨S1600000, .i32⟩ : BufTy).Contents (Elt Ideal)),
    StableHlo.ternary main_v72 main_v74 main_v70 main_v75 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v75 main_v76 (broadcastInDim S1600000x1 ![0] bcast_S1600000_S1600000x1_0 : (⟨S1600000, .i32⟩ : BufTy).Contents (Elt Ideal) → (⟨S1600000x1, .i32⟩ : BufTy).Contents (Elt Ideal)),
    StableHlo.binary main_v68 main_v76 main_v77 ((fun x i => Host.gather gather_S100000x64_S1600000x1_S1600000x64_1_0_n_n_0_1_164 x i) : (⟨S100000x64, .f32⟩ : BufTy).Contents (Elt Ideal) → (⟨S1600000x1, .i32⟩ : BufTy).Contents (Elt Ideal) → (⟨S1600000x64, .f32⟩ : BufTy).Contents (Elt Ideal)),
    StableHlo.unary main_arg1 main_v78 ((extractStridedSlice S1x1600000 ![1, 0] · slices_S2x1600000_S1x1600000_1_0) : (⟨S2x1600000, .i32⟩ : BufTy).Contents (Elt Ideal) → (⟨S1x1600000, .i32⟩ : BufTy).Contents (Elt Ideal)),
    StableHlo.reshape main_v78 main_v79 rfl shapeCasts_S1x1600000_S1600000,
    StableHlo.nullary main_c_15 (constantI S_ 32 0#32),
    StableHlo.unary main_c_15 main_v80 (broadcastInDim S1600000 ![] bcast_S_S1600000 : (⟨S_, .i32⟩ : BufTy).Contents (Elt Ideal) → (⟨S1600000, .i32⟩ : BufTy).Contents (Elt Ideal)),
    StableHlo.binary main_v79 main_v80 main_v81 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_16 (constantI S_ 32 100000#32),
    StableHlo.unary main_c_16 main_v82 (broadcastInDim S1600000 ![] bcast_S_S1600000 : (⟨S_, .i32⟩ : BufTy).Contents (Elt Ideal) → (⟨S1600000, .i32⟩ : BufTy).Contents (Elt Ideal)),
    StableHlo.binary main_v79 main_v82 main_v83 (addi : (⟨S1600000, .i32⟩ : BufTy).Contents (Elt Ideal) → (⟨S1600000, .i32⟩ : BufTy).Contents (Elt Ideal) → (⟨S1600000, .i32⟩ : BufTy).Contents (Elt Ideal)),
    StableHlo.ternary main_v81 main_v83 main_v79 main_v84 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v84 main_v85 (broadcastInDim S1600000x1 ![0] bcast_S1600000_S1600000x1_0 : (⟨S1600000, .i32⟩ : BufTy).Contents (Elt Ideal) → (⟨S1600000x1, .i32⟩ : BufTy).Contents (Elt Ideal)),
    StableHlo.binary main_v68 main_v85 main_v86 ((fun x i => Host.gather gather_S100000x64_S1600000x1_S1600000x64_1_0_n_n_0_1_164 x i) : (⟨S100000x64, .f32⟩ : BufTy).Contents (Elt Ideal) → (⟨S1600000x1, .i32⟩ : BufTy).Contents (Elt Ideal) → (⟨S1600000x64, .f32⟩ : BufTy).Contents (Elt Ideal)) ]

/-- The join of the two gathered halves, and the head's bias laid out as a [1, 1] array. -/
abbrev edgeJoin : List (HloOp τ sig (Elt Ideal)) :=
  [ StableHlo.binary main_v77 main_v86 main_v87 ((fun a b => concatenate S1600000x128 1 [⟨S1600000x64, a⟩, ⟨S1600000x64, b⟩] concatenates_S1600000x64_S1600000x64_S1600000x128_d1) : (⟨S1600000x64, .f32⟩ : BufTy).Contents (Elt Ideal) → (⟨S1600000x64, .f32⟩ : BufTy).Contents (Elt Ideal) → (⟨S1600000x128, .f32⟩ : BufTy).Contents (Elt Ideal)),
    StableHlo.reshape main_arg9 main_v88 rfl shapeCasts_S1_S1x1 ]

theorem edge_split : (hostOps3_2 : List (HloOp τ sig (Elt Ideal))) = edgeGathers ++ edgeJoin := rfl

/-! ## The second graph layer and the edge embeddings -/

theorem W8_v52 (c : Dev nD) : W8 m ρ c (Proc.devRef .tc main_v52) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 2).trans ?_
  rw [Layer1Weights.final]
  show Layer1Weights.result (W7 m ρ c (Proc.devRef .tc main_v51)) (W7 m ρ c (Proc.devRef .tc main_arg6)) = _
  rw [W7_v51, Carry.W7_main_arg6, Cert.Bridge.layer1_ref]

theorem W9_v67 (c : Dev nD) : W9 m ρ c (Proc.devRef .tc main_v67) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h52 := W8_v52 m ρ c
  have h3 := (Carry.W8_main_v3_from3 m ρ c).trans (W3_v3 m ρ c)
  have h6 := (Carry.W8_main_v6_from3 m ρ c).trans (W3_v6 m ρ c)
  have h32 := (Carry.W8_main_v32_from3 m ρ c).trans (W3_v32 m ρ c)
  have h7 := Carry.W8_main_arg7 m ρ c
  show StableHlo.after hostOps3 (W8 m ρ c) (Proc.devRef .tc main_v67) = _
  generalize W8 m ρ c = V at h52 h3 h6 h32 h7 ⊢
  after_results_simp
  rw [h52, h3, h6, h32, h7]
  rfl

theorem W10_v68 (c : Dev nD) : W10 m ρ c (Proc.devRef .tc main_v68) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3_1 (W9 m ρ c) (Proc.devRef .tc main_v68) = _
  rw [relu0_result, W9_v67]
  rfl

theorem W11_v87 (c : Dev nD) : W11 m ρ c (Proc.devRef .tc main_v87) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h68 := W10_v68 m ρ c
  have h1 := Carry.W10_main_arg1 m ρ c
  have h77 : StableHlo.after edgeGathers (W10 m ρ c) (Proc.devRef .tc main_v77) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    generalize W10 m ρ c = V at h68 h1 ⊢
    after_results_simp
    rw [h68, h1]
    rfl
  have h86 : StableHlo.after edgeGathers (W10 m ρ c) (Proc.devRef .tc main_v86) = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    generalize W10 m ρ c = V at h68 h1 ⊢
    after_results_simp
    rw [h68, h1]
    rfl
  show StableHlo.after hostOps3_2 (W10 m ρ c) (Proc.devRef .tc main_v87) = _
  rw [edge_split, Cert.Lib.after_append]
  generalize StableHlo.after edgeGathers (W10 m ρ c) = V at h77 h86 ⊢
  after_results
  rw [h77, h86]
  rfl

theorem W11_v88 (c : Dev nD) : W11 m ρ c (Proc.devRef .tc main_v88) = shapeCast S1x1 (m ((c.tc : Thread nD τ).loc main_arg9)) shapeCasts_S1_S1x1 := by
  have h9 := Carry.W10_main_arg9 m ρ c
  show StableHlo.after hostOps3_2 (W10 m ρ c) (Proc.devRef .tc main_v88) = _
  generalize W10 m ρ c = V at h9 ⊢
  after_results_simp
  rw [h9]
  rfl

/-! ## The two heads -/

theorem W12_v89 (c : Dev nD) : W12 m ρ c (Proc.devRef .tc main_v89)
    = SwitchHead.result (val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (shapeCast S1x1 (m ((c.tc : Thread nD τ).loc main_arg9)) shapeCasts_S1_S1x1) := by
  refine (W12_arr m ρ c 3).trans ?_
  rw [SwitchHead.final]
  show SwitchHead.result (W11 m ρ c (Proc.devRef .tc main_v87)) (W11 m ρ c (Proc.devRef .tc main_arg8)) (W11 m ρ c (Proc.devRef .tc main_v88)) = _
  rw [W11_v87, Carry.W11_main_arg8, W11_v88]

theorem W13_v90 (c : Dev nD) : W13 m ρ c (Proc.devRef .tc main_v90) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h89 := W12_v89 m ρ c
  show StableHlo.after hostOps4 (W12 m ρ c) (Proc.devRef .tc main_v90) = _
  generalize W12 m ρ c = V at h89 ⊢
  after_results_simp
  rw [h89]
  exact (Cert.Bridge.switch_ref _ _ _ _ _ _ _ _ _ _).symm

theorem W13_v91 (c : Dev nD) : W13 m ρ c (Proc.devRef .tc main_v91) = shapeCast S1x1 (m ((c.tc : Thread nD τ).loc main_arg11)) shapeCasts_S1_S1x1 := by
  have h11 := Carry.W12_main_arg11 m ρ c
  show StableHlo.after hostOps4 (W12 m ρ c) (Proc.devRef .tc main_v91) = _
  generalize W12 m ρ c = V at h11 ⊢
  after_results_simp
  rw [h11]
  rfl

theorem W14_v92 (c : Dev nD) : W14 m ρ c (Proc.devRef .tc main_v92)
    = VoltageHead.result (val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg10)) (shapeCast S1x1 (m ((c.tc : Thread nD τ).loc main_arg11)) shapeCasts_S1_S1x1) := by
  refine (W14_arr m ρ c 3).trans ?_
  rw [VoltageHead.final]
  show VoltageHead.result (W13 m ρ c (Proc.devRef .tc main_v68)) (W13 m ρ c (Proc.devRef .tc main_arg10)) (W13 m ρ c (Proc.devRef .tc main_v91)) = _
  rw [Carry.W13_main_v68_from10, W10_v68, Carry.W13_main_arg10, W13_v91]

/-- The second result: the voltage predictions. -/
theorem W15_v93 (c : Dev nD) : W15 m ρ c (Proc.devRef .tc main_v93) = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) := by
  have h92 := W14_v92 m ρ c
  show StableHlo.after hostOps5 (W14 m ρ c) (Proc.devRef .tc main_v93) = _
  generalize W14 m ρ c = V at h92 ⊢
  after_results_simp
  rw [h92]
  exact (Cert.Bridge.voltage_ref _ _ _ _ _ _ _ _ _ _).symm

/-- The first result: the switch predictions. -/
theorem W15_v90 (c : Dev nD) : W15 m ρ c (Proc.devRef .tc main_v90) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Carry.W15_main_v90_from13 m ρ c).trans (W13_v90 m ρ c)

end Cert.KernelIdeal.Walk

end
-- ==== Proof.lean ====
/-
  The certificate of the two-layer graph convolution with a switch head per edge and a voltage head per node: the
  kernel program against its reference, over the extended reals.

  Both programs compute, from node inputs x and an edge list, h₀ = relu (x·W_enc + b_enc); two graph layers
  h ↦ relu (Σ over the edges into a node, self-loops included, of the per-edge scale times (h·W) at the edge's source,
  plus the bias), the scale being the product of the inverse square roots of the two end nodes' degrees; then for every
  edge σ ([h_src | h_dst]·W_sw + b_sw) and for every node (0.9 + 0.2·σ (h·W_v + b_v))², with σ the logistic function
  and 0.9, 0.2 their f32 words. The kernel program computes the five dense stages (the encoder, the two weight products
  and the two heads) in row blocks by five regions and everything else by the reference's own host operations; the
  reference computes the dense stages by whole matrix products. Over the extended reals a row block of a product is
  the same rows of the whole product, rounding the operands of a product to bf16 is the identity, and the logistic
  function spelt 1 / (1 + e^(-z)) is the logistic function, so the two results agree array by array; no law that
  needs finite entries is used.

  The modules: KernelRun (the kernel program's run with its two results named), Encoder, Layer0Weights,
  Layer1Weights, SwitchHead and VoltageHead (each region's output array as a function of its input arrays), Carry (what
  each segment leaves alone), RefLayers (the reference's dense stages are those functions), Walk (the kernel's arrays
  are the reference's, segment by segment), and here the five claims.
-/
import proofs.«132030_j83554293776947_1_alg».proof.Defs
import proofs.«132030_j83554293776947_1_alg».proof.Proof.Gen.Kernel
import proofs.«132030_j83554293776947_1_alg».proof.Proof.Gen.Kernel.Frame
import proofs.«132030_j83554293776947_1_alg».proof.Proof.Gen.KernelIdeal
import proofs.«132030_j83554293776947_1_alg».proof.Proof.Gen.KernelIdeal.Frame
import proofs.«132030_j83554293776947_1_alg».proof.Proof.Gen.ReferenceIdeal
import proofs.«132030_j83554293776947_1_alg».proof.Proof.Gen.Pre_finite_inputs
import proofs.«132030_j83554293776947_1_alg».proof.Proof.RefRun
import proofs.«132030_j83554293776947_1_alg».proof.Proof.RefRead
import proofs.«132030_j83554293776947_1_alg».proof.Proof.KernelRun
import proofs.«132030_j83554293776947_1_alg».proof.Proof.Walk
import Idealize.ShloMosaic.Adequacy
import Idealize.ShloMosaic.Init

noncomputable section

namespace Cert.Proof

open Idealize.ShloMosaic Idealize.SL.Sem

/-- The kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the switch predictions and the voltage
    predictions at the reference's two stages of the arguments. -/
theorem algebraic : Cert.algebraic_KernelIdeal_ReferenceIdeal := by
  intro m ρ m' ρ' _ hagree
  refine ⟨fun c => Cert.ReferenceIdeal.Value.res_main_v117 m' c, fun c => Cert.ReferenceIdeal.Value.res_main_v133 m' c, ?_,
    Cert.ReferenceIdeal.Value.run (F := Ideal) m' ρ'⟩
  refine (θ_run Cert.KernelIdeal.defs _ _).mono (fun r h c => ⟨(h c).1.trans ?_, (h c).2.1.trans ?_, (h c).2.2⟩)
    (Cert.KernelIdeal.Results.run_results (F := Ideal) m ρ)
  · obtain ⟨h0, h1, h2, h3, h4, h5, h6, h7, h8, h9, h10, h11⟩ := hagree c
    rw [Cert.KernelIdeal.Walk.W15_v90]
    show _ = Cert.ReferenceIdeal.Value.res_main_v117 m' c
    rw [Cert.ReferenceIdeal.Read.val_main_v117_eq, h0, h1, h2, h3, h4, h5, h6, h7, h8, h9]
  · obtain ⟨h0, h1, h2, h3, h4, h5, h6, h7, h8, h9, h10, h11⟩ := hagree c
    rw [Cert.KernelIdeal.Walk.W15_v93]
    show _ = Cert.ReferenceIdeal.Value.res_main_v133 m' c
    rw [Cert.ReferenceIdeal.Read.val_main_v133_eq, h0, h1, h2, h3, h4, h5, h6, h7, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
